-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S8192x256 .f32) (main_arg7 : FVec F S8192 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_v33

def fn {F : FTy → Type} [FloatOps F] (main_arg0 : FVec F S8x4096x512 .f32) (main_arg1 : FVec F S8x256 .f32) (main_arg2 : FVec F S512x512 .f32) (main_arg3 : FVec F S512 .f32) (main_arg4 : FVec F S256x256 .f32) (main_arg5 : FVec F S256 .f32) (main_arg6 : FVec F S8192x256 .f32) (main_arg7 : FVec F S8192 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S1x256 : Shape := ⟨2, ![1, 256]⟩
abbrev S_ : Shape := ⟨0, ![]⟩
abbrev S256x8192 : Shape := ⟨2, ![256, 8192]⟩
abbrev S8x8192 : Shape := ⟨2, ![8, 8192]⟩
abbrev S1x8192 : Shape := ⟨2, ![1, 8192]⟩
abbrev S8x4096 : Shape := ⟨2, ![8, 4096]⟩
abbrev S8x8x512 : Shape := ⟨3, ![8, 8, 512]⟩
abbrev S8x512x8 : Shape := ⟨3, ![8, 512, 8]⟩
abbrev S1x512 : Shape := ⟨2, ![1, 512]⟩
abbrev S8x512x512 : Shape := ⟨3, ![8, 512, 512]⟩
abbrev S1x512x512 : Shape := ⟨3, ![1, 512, 512]⟩
abbrev S1x2048x512 : Shape := ⟨3, ![1, 2048, 512]⟩
abbrev S2048x512 : Shape := ⟨2, ![2048, 512]⟩

abbrev nBuf : Space → Nat
  | .hbm => 44
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S8x256, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S8192x256, .f32⟩
  | .hbm, ⟨7, _⟩ => ⟨S8192, .f32⟩
  | .hbm, ⟨8, _⟩ => ⟨S256x256, .f32⟩
  | .hbm, ⟨9, _⟩ => ⟨S8x256, .f32⟩
  | .hbm, ⟨10, _⟩ => ⟨S1x256, .f32⟩
  | .hbm, ⟨11, _⟩ => ⟨S8x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S256x8192, .f32⟩
  | .hbm, ⟨23, _⟩ => ⟨S8x8192, .f32⟩
  | .hbm, ⟨24, _⟩ => ⟨S1x8192, .f32⟩
  | .hbm, ⟨25, _⟩ => ⟨S8x8192, .f32⟩
  | .hbm, ⟨26, _⟩ => ⟨S8x8192, .f32⟩
  | .hbm, ⟨27, _⟩ => ⟨S8x4096, .f32⟩
  | .hbm, ⟨28, _⟩ => ⟨S8x8x512, .f32⟩
  | .hbm, ⟨29, _⟩ => ⟨S8x4096, .f32⟩
  | .hbm, ⟨30, _⟩ => ⟨S8x512x8, .f32⟩
  | .hbm, ⟨31, _⟩ => ⟨S8x512x8, .f32⟩
  | .hbm, ⟨32, _⟩ => ⟨S8x8x512, .f32⟩
  | .hbm, ⟨33, _⟩ => ⟨S512x512, .f32⟩
  | .hbm, ⟨34, _⟩ => ⟨S1x512, .f32⟩
  | .hbm, ⟨35, _⟩ => ⟨S8x512x512, .f32⟩
  | .hbm, ⟨36, _⟩ => ⟨S_, .f32⟩
  | .hbm, ⟨37, _⟩ => ⟨S8x512x512, .f32⟩
  | .hbm, ⟨38, _⟩ => ⟨S8x512x512, .f32⟩
  | .hbm, ⟨39, _⟩ => ⟨S1x512x512, .f32⟩
  | .hbm, ⟨40, _⟩ => ⟨S8x512x512, .f32⟩
  | .hbm, ⟨41, _⟩ => ⟨S8x512x512, .f32⟩
  | .hbm, ⟨42, _⟩ => ⟨S8x512x512, .bf16⟩
  | .hbm, ⟨43, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x2048x512, .f32⟩
  | .local _ .vmem, ⟨6, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S8192x256_S256x8192_1_0 : S8192x256.Transposes [1, 0] S256x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  slices_S8x8192_S8x4096_0_0 : S8x8192.Slices ![0, 0] S8x4096
  shapeCasts_S8x4096_S8x8x512 : S8x4096.ShapeCasts S8x8x512
  slices_S8x8192_S8x4096_0_4096 : S8x8192.Slices ![0, 4096] S8x4096
  shapeCasts_S8x4096_S8x512x8 : S8x4096.ShapeCasts S8x512x8
  transposes_S8x8x512_S8x512x8_0_2_1 : S8x8x512.Transposes [0, 2, 1] S8x512x8
  transposes_S8x512x8_S8x8x512_0_2_1 : S8x512x8.Transposes [0, 2, 1] S8x8x512
  transposes_S512x512_S512x512_1_0 : S512x512.Transposes [1, 0] S512x512
  shapeCasts_S512_S1x512 : S512.ShapeCasts S1x512
  bcast_S_S8x512x512 : S_.BroadcastsInDim S8x512x512 (![] : Fin 0 → Fin S8x512x512.rank)
  bcast_S512x512_S1x512x512_1_2 : S512x512.BroadcastsInDim S1x512x512 (![1, 2] : Fin 2 → Fin S1x512x512.rank)
  bcast_S1x512x512_S8x512x512_0_1_2 : S1x512x512.BroadcastsInDim S8x512x512 (![0, 1, 2] : Fin 3 → Fin S8x512x512.rank)
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S1x2048x512 : S2048x512.ShapeCasts S1x2048x512
  dot_S8x256_S256x256_S8x256_1_0_0_1_n_n_wf : DotDims.WF S8x256 S256x256 S8x256 [1] [0] [0] [1] [] []
  dot_S8x256_S256x8192_S8x8192_1_0_0_1_n_n_wf : DotDims.WF S8x256 S256x8192 S8x8192 [1] [0] [0] [1] [] []
  dot_S8x512x8_S8x8x512_S8x512x512_2_1_1_2_0_0_wf : DotDims.WF S8x512x8 S8x8x512 S8x512x512 [2] [1] [1] [2] [0] [0]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .bf16 = 32 ∨ (Rect.block (s := S8x512x512) S1x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x512.size a
  hwx0_3 : ∀ i : grid0.Coords, EltTy.bits .f32 = 32 ∨ (Rect.block (s := S8x4096x512) S1x2048x512.size (cc0_transform_3 i) (hinb0_3 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8192_S8x8192_1_0_0_1_n_n : DotDims S8x256 S256x8192 S8x8192 where
  lhsContracting := [1]
  rhsContracting := [0]
  lhsNonContracting := [0]
  rhsNonContracting := [1]
  lhsBatch := []
  rhsBatch := []
  wf := dot_S8x256_S256x8192_S8x8192_1_0_0_1_n_n_wf
def dot_S8x512x8_S8x8x512_S8x512x512_2_1_1_2_0_0 : DotDims S8x512x8 S8x8x512 S8x512x512 where
  lhsContracting := [2]
  rhsContracting := [1]
  lhsNonContracting := [1]
  rhsNonContracting := [2]
  lhsBatch := [0]
  rhsBatch := [0]
  wf := dot_S8x512x8_S8x8x512_S8x512x512_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S1x1x512 : Shape := ⟨3, ![1, 1, 512]⟩
abbrev S1x256 : Shape := ⟨2, ![1, 256]⟩
abbrev S_ : Shape := ⟨0, ![]⟩
abbrev S256x8192 : Shape := ⟨2, ![256, 8192]⟩
abbrev S8x8192 : Shape := ⟨2, ![8, 8192]⟩
abbrev S1x8192 : Shape := ⟨2, ![1, 8192]⟩
abbrev S8x4096 : Shape := ⟨2, ![8, 4096]⟩
abbrev S8x8x512 : Shape := ⟨3, ![8, 8, 512]⟩
abbrev S8x512x8 : Shape := ⟨3, ![8, 512, 8]⟩
abbrev S8x4096x8 : Shape := ⟨3, ![8, 4096, 8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S8192x256, .f32⟩
  | .hbm, ⟨7, _⟩ => ⟨S8192, .f32⟩
  | .hbm, ⟨8, _⟩ => ⟨S8x4096x512, .f32⟩
  | .hbm, ⟨9, _⟩ => ⟨S1x1x512, .f32⟩
  | .hbm, ⟨10, _⟩ => ⟨S8x4096x512, .f32⟩
  | .hbm, ⟨11, _⟩ => ⟨S8x4096x512, .f32⟩
  | .hbm, ⟨12, _⟩ => ⟨S256x256, .f32⟩
  | .hbm, ⟨13, _⟩ => ⟨S8x256, .f32⟩
  | .hbm, ⟨14, _⟩ => ⟨S1x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S256x8192, .f32⟩
  | .hbm, ⟨27, _⟩ => ⟨S8x8192, .f32⟩
  | .hbm, ⟨28, _⟩ => ⟨S1x8192, .f32⟩
  | .hbm, ⟨29, _⟩ => ⟨S8x8192, .f32⟩
  | .hbm, ⟨30, _⟩ => ⟨S8x8192, .f32⟩
  | .hbm, ⟨31, _⟩ => ⟨S8x4096, .f32⟩
  | .hbm, ⟨32, _⟩ => ⟨S8x8x512, .f32⟩
  | .hbm, ⟨33, _⟩ => ⟨S8x4096, .f32⟩
  | .hbm, ⟨34, _⟩ => ⟨S8x512x8, .f32⟩
  | .hbm, ⟨35, _⟩ => ⟨S8x4096x8, .f32⟩
  | .hbm, ⟨36, _⟩ => ⟨S8x4096x512, .f32⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S8192x256_S256x8192_1_0 : S8192x256.Transposes [1, 0] S256x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  slices_S8x8192_S8x4096_0_0 : S8x8192.Slices ![0, 0] S8x4096
  shapeCasts_S8x4096_S8x8x512 : S8x4096.ShapeCasts S8x8x512
  slices_S8x8192_S8x4096_0_4096 : S8x8192.Slices ![0, 4096] S8x4096
  shapeCasts_S8x4096_S8x512x8 : S8x4096.ShapeCasts S8x512x8
  bcast_S_S8x4096x512 : S_.BroadcastsInDim S8x4096x512 (![] : Fin 0 → Fin S8x4096x512.rank)
  dot_S8x4096x512_S512x512_S8x4096x512_2_1_01_0_n_n_wf : DotDims.WF S8x4096x512 S512x512 S8x4096x512 [2] [1] [0, 1] [0] [] []
  dot_S8x256_S256x256_S8x256_1_0_0_1_n_n_wf : DotDims.WF S8x256 S256x256 S8x256 [1] [0] [0] [1] [] []
  dot_S8x256_S256x8192_S8x8192_1_0_0_1_n_n_wf : DotDims.WF S8x256 S256x8192 S8x8192 [1] [0] [0] [1] [] []
  dot_S8x4096x512_S8x8x512_S8x4096x8_2_2_1_1_0_0_wf : DotDims.WF S8x4096x512 S8x8x512 S8x4096x8 [2] [2] [1] [1] [0] [0]
  dot_S8x4096x8_S8x512x8_S8x4096x512_2_2_1_1_0_0_wf : DotDims.WF S8x4096x8 S8x512x8 S8x4096x512 [2] [2] [1] [1] [0] [0]

variable [Facts₀]

def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8192_S8x8192_1_0_0_1_n_n : DotDims S8x256 S256x8192 S8x8192 where
  lhsContracting := [1]
  rhsContracting := [0]
  lhsNonContracting := [0]
  rhsNonContracting := [1]
  lhsBatch := []
  rhsBatch := []
  wf := dot_S8x256_S256x8192_S8x8192_1_0_0_1_n_n_wf
def dot_S8x4096x512_S8x8x512_S8x4096x8_2_2_1_1_0_0 : DotDims S8x4096x512 S8x8x512 S8x4096x8 where
  lhsContracting := [2]
  rhsContracting := [2]
  lhsNonContracting := [1]
  rhsNonContracting := [1]
  lhsBatch := [0]
  rhsBatch := [0]
  wf := dot_S8x4096x512_S8x8x512_S8x4096x8_2_2_1_1_0_0_wf
def dot_S8x4096x8_S8x512x8_S8x4096x512_2_2_1_1_0_0 : DotDims S8x4096x8 S8x512x8 S8x4096x512 where
  lhsContracting := [2]
  rhsContracting := [2]
  lhsNonContracting := [1]
  rhsNonContracting := [1]
  lhsBatch := [0]
  rhsBatch := [0]
  wf := dot_S8x4096x8_S8x512x8_S8x4096x512_2_2_1_1_0_0_wf

class Facts : Prop extends Facts₀ where

variable [Facts]
-- ==== Proof.Spec.lean ====
/-
  The two programs' results as functions of arrays, entry by entry, over the extended reals.

  Notation: X[b,t,d] the activations, W[o,d] the base weight, bb[o] the base bias, and, for each sample b,
  the two low-rank factors A[b,r,d] (rank × inputs) and Bm[b,o,r] (outputs × rank) the hypernetwork produced.

  * The folded weight of sample b is  We[b,d,o] = W[o,d] + Σ_r A[b,r,d] · Bm[b,o,r].
  * The kernel computes             out[b,t,o] = (Σ_d X[b,t,d] · We[b,d,o]) + bias[0,o].
  * The reference computes          out[b,t,o] = ((Σ_d X[b,t,d] · W[o,d]) + bb[o]) + Σ_r (Σ_d X[b,t,d] · A[b,r,d]) · Bm[b,o,r].
-/
import Idealize.ShloMosaic.Lib.ValueIdx

noncomputable section

namespace Cert.Lora

open Idealize.ShloMosaic Idealize.ShloMosaic.ValueIdx
open scoped BigOperators

/-- Activations and results: samples × tokens × features. -/
abbrev SX : Shape := ⟨3, ![8, 4096, 512]⟩
/-- The base weight: outputs × inputs. -/
abbrev SW : Shape := ⟨2, ![512, 512]⟩
/-- The base bias. -/
abbrev SB : Shape := ⟨1, ![512]⟩
/-- The bias as a one-row matrix. -/
abbrev SB2 : Shape := ⟨2, ![1, 512]⟩
/-- The first low-rank factor: samples × rank × inputs. -/
abbrev SA : Shape := ⟨3, ![8, 8, 512]⟩
/-- The second low-rank factor: samples × outputs × rank. -/
abbrev SBm : Shape := ⟨3, ![8, 512, 8]⟩
/-- The folded weights: samples × inputs × outputs. -/
abbrev SWe : Shape := ⟨3, ![8, 512, 512]⟩

/-- The folded weight of sample `b` at (input `d`, output `o`). -/
def weffAt (W : SW.Idx → EReal) (A : SA.Idx → EReal) (Bm : SBm.Idx → EReal) (b : Fin 8) (d o : Fin 512) : EReal :=
  W (ix2 o d) + ∑ r : Fin 8, A (ix3 b r d) * Bm (ix3 b o r)

/-- The folded weights as an array. -/
def weff (W : SW.Idx → EReal) (A : SA.Idx → EReal) (Bm : SBm.Idx → EReal) : SWe.Idx → EReal :=
  fun j => weffAt W A Bm (j 0) (j 1) (j 2)

/-- One dense product with a per-sample weight, plus a bias row, at (sample, token, output). -/
def kernelOutAt (X : SX.Idx → EReal) (We : SWe.Idx → EReal) (bias : SB2.Idx → EReal) (b : Fin 8) (t : Fin 4096) (o : Fin 512) : EReal :=
  (∑ d : Fin 512, X (ix3 b t d) * We (ix3 b d o)) + bias (ix2 (0 : Fin 1) o)

/-- The same as an array. -/
def kernelOut (X : SX.Idx → EReal) (We : SWe.Idx → EReal) (bias : SB2.Idx → EReal) : SX.Idx → EReal :=
  fun i => kernelOutAt X We bias (i 0) (i 1) (i 2)

/-- The base linear map plus the low-rank path taken factor by factor, at (sample, token, output). -/
def refOutAt (X : SX.Idx → EReal) (W : SW.Idx → EReal) (bb : SB.Idx → EReal) (A : SA.Idx → EReal) (Bm : SBm.Idx → EReal)
    (b : Fin 8) (t : Fin 4096) (o : Fin 512) : EReal :=
  ((∑ d : Fin 512, X (ix3 b t d) * W (ix2 o d)) + bb (ix1 o))
    + ∑ r : Fin 8, (∑ d : Fin 512, X (ix3 b t d) * A (ix3 b r d)) * Bm (ix3 b o r)

/-- The same as an array. -/
def refOut (X : SX.Idx → EReal) (W : SW.Idx → EReal) (bb : SB.Idx → EReal) (A : SA.Idx → EReal) (Bm : SBm.Idx → EReal) :
    SX.Idx → EReal :=
  fun i => refOutAt X W bb A Bm (i 0) (i 1) (i 2)

end Cert.Lora

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.SpecLaw.lean ====
/-
  The algebraic law that joins the two programs: for finite (real) entries, folding the low-rank factors into the
  weight first and multiplying once equals multiplying by the base weight and by the two factors in turn,

    Σ_d x_d · (w_d + Σ_r a_{r,d} · β_r) + c  =  (Σ_d x_d · w_d + c) + Σ_r (Σ_d x_d · a_{r,d}) · β_r .

  It is distributivity and an exchange of the two finite sums. Distributivity fails on the extended reals at the
  infinities, so the law is proved on the reals and carried over by the coercion, which commutes with +, · and
  finite sums.
-/
import proofs.«112562_j60000693125372_2_alg».proof.Proof.Spec
import proofs.«112562_j60000693125372_2_alg».proof.Proof.LibFinite

noncomputable section

namespace Cert.Lora

open Idealize.ShloMosaic Idealize.ShloMosaic.ValueIdx LibFinite
open scoped BigOperators

/-- The law on the reals. -/
theorem fold_real {ι κ : Type} [Fintype ι] [Fintype κ] (x w : ι → ℝ) (a : κ → ι → ℝ) (β : κ → ℝ) (c : ℝ) :
    (∑ d, x d * (w d + ∑ r, a r d * β r)) + c = ((∑ d, x d * w d) + c) + ∑ r, (∑ d, x d * a r d) * β r := by
  have h1 : ∑ d, x d * (w d + ∑ r, a r d * β r) = (∑ d, x d * w d) + ∑ d, ∑ r, x d * a r d * β r := by
    rw [← Finset.sum_add_distrib]
    refine Finset.sum_congr rfl fun d _ => ?_
    rw [mul_add, Finset.mul_sum]
    refine congrArg _ (Finset.sum_congr rfl fun r _ => ?_)
    ring
  have h2 : ∑ r, (∑ d, x d * a r d) * β r = ∑ d, ∑ r, x d * a r d * β r := by
    rw [Finset.sum_comm]
    refine Finset.sum_congr rfl fun r _ => ?_
    rw [Finset.sum_mul]
  rw [h1, h2]
  ring

/-- The law on the extended reals, for real entries. -/
theorem fold_ereal {ι κ : Type} [Fintype ι] [Fintype κ] (x w : ι → EReal) (a : κ → ι → EReal) (β : κ → EReal) (c : EReal)
    (hx : ∀ d, IsReal (x d)) (hw : ∀ d, IsReal (w d)) (ha : ∀ r d, IsReal (a r d)) (hβ : ∀ r, IsReal (β r)) (hc : IsReal c) :
    (∑ d, x d * (w d + ∑ r, a r d * β r)) + c = ((∑ d, x d * w d) + c) + ∑ r, (∑ d, x d * a r d) * β r := by
  choose x' hx' using hx
  choose w' hw' using hw
  choose a' ha' using ha
  choose β' hβ' using hβ
  obtain ⟨c', rfl⟩ := hc
  have ex : x = fun d => ((x' d : ℝ) : EReal) := funext hx'
  have ew : w = fun d => ((w' d : ℝ) : EReal) := funext hw'
  have ea : a = fun r d => ((a' r d : ℝ) : EReal) := funext fun r => funext fun d => ha' r d
  have eβ : β = fun r => ((β' r : ℝ) : EReal) := funext hβ'
  subst ex ew ea eβ
  simp only [← EReal.coe_mul, ← coe_finset_sum, ← EReal.coe_add]
  exact congrArg _ (fold_real x' w' a' β' c')

/-- With real entries everywhere, the kernel's one product with the folded weights, plus a bias row that holds the
    base bias, is the reference's base map plus its low-rank path. -/
theorem kernelOut_weff_eq_refOut (X : SX.Idx → EReal) (W : SW.Idx → EReal) (bb : SB.Idx → EReal) (A : SA.Idx → EReal)
    (Bm : SBm.Idx → EReal) (bias : SB2.Idx → EReal) (hbias : ∀ o : Fin 512, bias (ix2 (0 : Fin 1) o) = bb (ix1 o))
    (hX : AllReal X) (hW : AllReal W) (hbb : AllReal bb) (hA : AllReal A) (hBm : AllReal Bm) :
    kernelOut X (weff W A Bm) bias = refOut X W bb A Bm := by
  funext i
  obtain ⟨b, t, o, rfl⟩ : ∃ (b : Fin 8) (t : Fin 4096) (o : Fin 512), i = ix3 b t o := ⟨i 0, i 1, i 2, eq_ix3 i⟩
  show kernelOutAt X (weff W A Bm) bias b t o = refOutAt X W bb A Bm b t o
  unfold kernelOutAt refOutAt
  rw [hbias]
  exact fold_ereal (fun d => X (ix3 b t d)) (fun d => W (ix2 o d)) (fun r d => A (ix3 b r d)) (fun r => Bm (ix3 b o r))
    (bb (ix1 o)) (fun d => hX _) (fun d => hW _) (fun r d => hA _) (fun r => hBm _) (hbb _)

end Cert.Lora

end
-- ==== Proof.PreFinite.lean ====
/-
  The precondition read back: "every float input is finite" is printed as a conjunction, over the eight arguments,
  of `all (|x| < +∞)`. An `all` that holds gives the comparison at every index; `|x| = max x (−x)` below `+∞`
  excludes both infinities; so every entry of every argument is a real number.
-/
import proofs.«112562_j60000693125372_2_alg».proof.Pre_finite_inputs
import proofs.«112562_j60000693125372_2_alg».proof.Proof.LibFinite
import Idealize.ShloMosaic.Lib.ReduceAll
import Idealize.ShloMosaic.Lib.ValueIdx

noncomputable section

namespace Cert.Lora.Pre

open Idealize.ShloMosaic Idealize.ShloMosaic.ValueIdx LibFinite Cert.Pre_finite_inputs

/-- The scalar shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- `|x| < +∞` excludes both infinities. -/
theorem isReal_of_abs_lt_top {x : EReal} (h : max x (-x) < ⊤) : IsReal x := by
  induction x using EReal.rec with
  | bot => exact absurd h (by simp)
  | top => exact absurd h (by simp)
  | coe r => exact ⟨r, rfl⟩

/-- One conjunct: `all (|x| < +∞)` makes every entry of `x` real. -/
theorem allReal_of_all {s : Shape} {axes : List (Fin s.rank)} (x : FVec Ideal s .f32)
    (hb : S_.BroadcastsInDim s (![] : Fin 0 → Fin s.rank)) (h : s.ReducesTo axes S_) (hu : 0 < S_.numel) (init : IVec S_ 1)
    (j : S_.Idx)
    (e : Host.reduce IntOp.andi (cmpf .olt (Host.absf x) (broadcastInDim s ![] hb (constant (F := Ideal) S_ .f32 0x7F800000#32)))
      init h hu j = 1#1) : AllReal x := by
  intro i
  have hi := Host.reduce_andi_all _ _ h hu j e i
  have hi' : BitVec.ofBool (decide (max (x i) (-(x i)) < Ideal.ofBits .f32 0x7F800000#32)) = 1#1 := hi
  rw [inf_word] at hi'
  refine isReal_of_abs_lt_top ?_
  by_contra hn
  rw [decide_eq_false hn] at hi'
  exact absurd hi' (by decide)

variable [Cert.Pre_finite_inputs.Facts]

/-- The whole precondition: each of the eight arguments has only real entries. -/
theorem args_real (a0 : FVec Ideal S8x4096x512 .f32) (a1 : FVec Ideal S8x256 .f32) (a2 : FVec Ideal S512x512 .f32)
    (a3 : FVec Ideal S512 .f32) (a4 : FVec Ideal S256x256 .f32) (a5 : FVec Ideal S256 .f32) (a6 : FVec Ideal S8192x256 .f32)
    (a7 : FVec Ideal S8192 .f32) (h : fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ _ _ e0, allReal_of_all a1 _ _ _ _ _ e1, allReal_of_all a2 _ _ _ _ _ e2,
    allReal_of_all a3 _ _ _ _ _ e3, allReal_of_all a4 _ _ _ _ _ e4, allReal_of_all a5 _ _ _ _ _ e5,
    allReal_of_all a6 _ _ _ _ _ e6, allReal_of_all a7 _ _ _ _ _ e7⟩

end Cert.Lora.Pre

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelBody.lean ====
/-
  What one grid point computes: the block's rows times the sample's folded weight, plus the bias row.

  The body reads a block X[0, p, d] of activations (2048 rows), the folded weight We[0, d, q] of the block's
  sample, and the bias row bias[0, q]. It drops the leading unit axis of both operands, narrows the activations
  to the weight's float format (no change over the extended reals), multiplies rows by columns into a zero
  accumulator, adds the bias row to every row, and puts the unit axis back. So at (0, p, q) the result is
      (Σ_d X[0, p, d] · We[0, d, q]) + bias[0, q].
-/
import proofs.«112562_j60000693125372_2_alg».proof.Proof.Gen.KernelIdeal.Skeleton
import proofs.«112562_j60000693125372_2_alg».proof.Proof.LibPlainMatmul
import proofs.«112562_j60000693125372_2_alg».proof.Proof.Spec

noncomputable section

namespace Cert.Lora.Region

open Idealize.ShloMosaic Idealize.ShloMosaic.ValueIdx
open Cert.KernelIdeal Cert.KernelIdeal.Gen
open scoped BigOperators

/-- The body's result at row `p`, column `q` of its block: the row of activations against the column of the folded
    weight, summed over the 512 input features, plus the bias of column `q`. -/
theorem pay_apply (x0 : Vec Ideal S1x2048x512 .f32) (x1 : Vec Ideal S1x512x512 .bf16) (x2 : Vec Ideal S1x512 .f32)
    (p : Fin 2048) (q : Fin 512) :
    k0_pay1 (F := Ideal) x0 x1 x2 (ix3 (0 : Fin 1) p q)
      = (∑ d : Fin 512, x0 (ix3 (0 : Fin 1) p d) * x1 (ix3 (0 : Fin 1) d q)) + x2 (ix2 (0 : Fin 1) q) := by
  unfold k0_pay1
  -- the unit axis put back, then the sum of the product and the spread bias row, entry by entry
  refine (shapeCast_ab_1ab_apply _ _ (0 : Fin 1) p q).trans ?_
  refine (addf_apply _ _ (ix2 p q)).trans ?_
  refine congrArg₂ (· + ·) ?_ ?_
  · -- the product into the zero accumulator is the sum over the shared axis
    refine (Cert.LibPlainMatmul.matmul_zero_plain _ _ _ p q).trans ?_
    refine Finset.sum_congr rfl fun d _ => ?_
    refine congrArg₂ (· * ·) ?_ ?_
    · -- narrowing the float format changes nothing over the extended reals
      exact (truncf_apply (φ := .f32) (ψ := .bf16) (shapeCast S2048x512 x0 shapeCasts_S1x2048x512_S2048x512) bitsLt_bf16_f32
        (ix2 p d)).trans (shapeCast_1ab_ab_apply x0 shapeCasts_S1x2048x512_S2048x512 p d)
    · exact shapeCast_1ab_ab_apply _ _ d q
  · -- every row of the spread bias is the bias row
    refine (broadcastTo_1b_ab_apply _ _ p q).trans ?_
    rw [shapeCast_self]

/-- The same against whole arrays. Suppose the block of activations is the rows of sample `b` around row `r` of the
    array `X` (its row `y 1` is row `r`), the weight block is sample `b`'s folded weight (its column `y 2` is
    column `o`), and the bias block is the bias row. Then the body's result at `y` is the specification's entry
    (b, r, o). -/
theorem pay_block (x0 : Vec Ideal S1x2048x512 .f32) (x1 : Vec Ideal S1x512x512 .bf16) (x2 : Vec Ideal S1x512 .f32)
    (X : SX.Idx → EReal) (We : SWe.Idx → EReal) (bias : SB2.Idx → EReal)
    (y : S1x2048x512.Idx) (b : Fin 8) (r : Fin 4096) (o : Fin 512)
    (h0 : ∀ d : Fin 512, x0 (ix3 (0 : Fin 1) (y 1) d) = X (ix3 b r d))
    (h1 : ∀ d : Fin 512, x1 (ix3 (0 : Fin 1) d (y 2)) = We (ix3 b d o))
    (h2 : x2 (ix2 (0 : Fin 1) (y 2)) = bias (ix2 (0 : Fin 1) o)) :
    k0_pay1 (F := Ideal) x0 x1 x2 y = kernelOutAt X We bias b r o := by
  obtain ⟨u, p, q, rfl⟩ : ∃ (u : Fin 1) (p : Fin 2048) (q : Fin 512), y = ix3 u p q := ⟨y 0, y 1, y 2, eq_ix3 y⟩
  obtain rfl : u = 0 := Subsingleton.elim _ _
  refine (pay_apply x0 x1 x2 p q).trans ?_
  unfold kernelOutAt
  exact congrArg₂ (· + ·) (Finset.sum_congr rfl fun d _ => congrArg₂ (· * ·) (h0 d) (h1 d)) h2

end Cert.Lora.Region

end
-- ==== Proof.KernelRegion.lean ====
/-
  What the one launch leaves in the result array.

  The grid has 8 × 2 points. Point (b, h) works on sample b and on the half h of its 4096 token rows: it reads rows
  2048·h … 2048·h + 2047 of X[b], all of the folded weight We[b], the one bias row, and writes the same rows of the
  result. Each point's block of the result is therefore the block of ONE array — the specification's
  out[b, t, o] = (Σ_d X[b, t, d] · We[b, d, o]) + bias[0, o] — and the sixteen blocks tile the result (row t of sample b
  lies in the block of point (b, t / 2048)). So after the launch the result array is that array.
-/
import proofs.«112562_j60000693125372_2_alg».proof.Proof.Gen.KernelIdeal.Value
import proofs.«112562_j60000693125372_2_alg».proof.Proof.KernelBody
import Idealize.ShloMosaic.Lib.Pipeline.Value

noncomputable section

namespace Cert.Lora.Region

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (c : Dev nD)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at a point, decided over the sixteen points: the activations' block and the result's block are
    the same block (sample, half, 0); the weight's block is (sample, 0, 0); the bias has the one block (0, 0); and the
    result's block indices stay in range. -/
theorem index_facts : ∀ t : Fin cfg0.N,
      win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 3) ≤ 7
    ∧ win0_3.index t (1 : Fin 3) ≤ 1
    ∧ win0_3.index t (2 : Fin 3) = 0 :=
  (by decide +kernel : ∀ t : Fin grid0.N, _)

/-- Every (sample, half) is some point's block of the result. -/
theorem index_onto : ∀ (b : Fin 8) (h : Fin 2), ∃ t : Fin cfg0.N, win0_3.index t = ![b.val, h.val, 0] :=
  (by decide +kernel : ∀ (b : Fin 8) (h : Fin 2), ∃ t : Fin grid0.N, win0_3.index t = ![b.val, h.val, 0])

/-- WHAT A POINT WRITES BACK is its block of the specification's array of the three arrays the launch finds. -/
theorem flushed_eq (t : Fin cfg0.N) :
    (dats m 0 c).flushed 3 t
      = ((cfg0.win 3).blk t).view.read (Elt Ideal) (kernelOut (V m c main_arg0) (V m c main_v25) (V m c main_v18)) := by
  rw [Cert.KernelIdeal.Value.flushed3]
  unfold out0_3
  rw [View.canon_unit_zero zeros3]
  simp only [View.ld_unit_zero (S := S1x2048x512) zeros3, View.ld_unit_zero (S := S1x512x512) zeros3,
    View.ld_unit_zero (S := S1x512) zeros2]
  obtain ⟨e00, e01, e02, e10, e11, e12, e20, e21, -, -, e32⟩ := index_facts t
  funext j
  rw [View.read_apply]
  have hj0 : (j 0).val < 1 := (j 0).isLt
  have hj1 : (j 1).val < 2048 := (j 1).isLt
  have hj2 : (j 2).val < 512 := (j 2).isLt
  refine pay_block (iblk m c 0 t) (iblk m c 1 t) (iblk m c 2 t) (V m c main_arg0) (V m c main_v25) (V m c main_v18)
    ((cfg0.win 3).xinj (grid0.coords t) j) ((((cfg0.win 3).blk t).view.emb j) 0) ((((cfg0.win 3).blk t).view.emb j) 1)
    ((((cfg0.win 3).blk t).view.emb j) 2) (fun d => ?_) (fun d => ?_) ?_
  · -- the activations: row `j 1` of the block is the result's row, every feature
    show V m c main_arg0 (((cfg0.win 0).blk t).view.emb _) = V m c main_arg0 _
    refine congrArg _ (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 2048 + 1 * (j 1).val = win0_3.index t (1 : Fin 3) * 2048 + 1 * (j 1).val; omega
    | ⟨2, _⟩ => show win0_0.index t (2 : Fin 3) * 512 + 1 * d.val = d.val; omega
  · -- the folded weight: the sample's whole matrix, column `j 2`
    show V m c main_v25 (((cfg0.win 1).blk t).view.emb _) = V m c main_v25 _
    refine congrArg _ (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 512 + 1 * d.val = d.val; omega
    | ⟨2, _⟩ => show win0_1.index t (2 : Fin 3) * 512 + 1 * (j 2).val = win0_3.index t (2 : Fin 3) * 512 + 1 * (j 2).val; omega
  · -- the bias row
    show V m c main_v18 (((cfg0.win 2).blk t).view.emb _) = V m c main_v18 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * (j 2).val = win0_3.index t (2 : Fin 3) * 512 + 1 * (j 2).val; omega

/-- An index of the result array is in a point's block iff each coordinate is in the block's range on its axis. -/
theorem mem_blk (t : Fin cfg0.N) (i : S8x4096x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v26).slice (win0_3.rect t)).set ↔ _
  rw [View.set_slice_whole, Rect.mem_set_unit]
  exact Iff.rfl

/-- The sixteen blocks cover the result: row `r` of sample `b` is in the block of the point (b, r / 2048). -/
theorem cover (i : S8x4096x512.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 512 := (i 2).isLt
  obtain ⟨t, ht⟩ := index_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE RESULT ARRAY after the launch is the specification's array of the activations, the folded weights and the
    bias row as the launch finds them. -/
theorem final : ((dats m 0 c).arrAt 3 cfg0.N : S8x4096x512.Idx → EReal)
    = kernelOut (V m c main_arg0) (V m c main_v25) (V m c main_v18) :=
  (dats m 0 c).arrAt_eq_of_cover 3 (kernelOut (V m c main_arg0) (V m c main_v25) (V m c main_v18))
    (fun t _ => flushed_eq m c t) cover

end Cert.Lora.Region

end
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«112562_j60000693125372_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.KernelHostRead.lean ====
/-
  The host's last operations before the region, read entry by entry.

  From the base weight W[o,d] and the two low-rank factors A[b,r,d] and Bm[b,o,r] the host forms the folded
  weights: it transposes the two factors on their last two axes, multiplies them sample by sample
  (a batched product contracting the rank axis), multiplies by the constant one, adds the transposed base
  weight broadcast over the samples, and narrows the format (the identity on extended reals). Entry
  (b, d, o) of the result is therefore W[o,d] + Σ_r A[b,r,d] · Bm[b,o,r]: the folded weight of the
  specification.
-/
import proofs.«112562_j60000693125372_2_alg».proof.Proof.Gen.KernelIdeal
import proofs.«112562_j60000693125372_2_alg».proof.Proof.Spec
import proofs.«112562_j60000693125372_2_alg».proof.Proof.LibFiniteOps
import Idealize.ShloMosaic.Lib.Pipeline.Value
import Idealize.ShloMosaic.Lib.ValueIdx
import Idealize.ShloMosaic.PureOps.Ideal.Laws

noncomputable section

namespace Cert.Lora.Host

open Idealize.ShloMosaic Idealize.ShloMosaic.ValueIdx
open Cert.KernelIdeal Cert.KernelIdeal.Gen
open scoped BigOperators

/-- The folded weights from the base weight and the two low-rank factors, as the host computes them:
    the base weight transposed and broadcast over the samples, plus one times the batched product of the
    two transposed factors, in the narrower format. -/
def tail (W : FVec Ideal S512x512 .f32) (A : FVec Ideal S8x8x512 .f32) (Bm : FVec Ideal S8x512x8 .f32) : FVec Ideal S8x512x512 .bf16 :=
  truncf .bf16
    (addf
      (broadcastInDim S8x512x512 ![0, 1, 2] bcast_S1x512x512_S8x512x512_0_1_2
        (broadcastInDim S1x512x512 ![1, 2] bcast_S512x512_S1x512x512_1_2
          (transpose S512x512 [1, 0] W transposes_S512x512_S512x512_1_0)))
      (mulf
        (broadcastInDim S8x512x512 ![] bcast_S_S8x512x512 (constant (F := Ideal) S_ .f32 0x3F800000#32))
        (Host.dotGeneral (F := Ideal) dot_S8x512x8_S8x8x512_S8x512x512_2_1_1_2_0_0 none
          (transpose S8x512x8 [0, 2, 1] A transposes_S8x8x512_S8x512x8_0_2_1)
          (transpose S8x8x512 [0, 2, 1] Bm transposes_S8x512x8_S8x8x512_0_2_1))))
    bitsLt_bf16_f32

/-! ## The batched product at an index -/

theorem dot_lhs_0 (i : S8x512x512.Idx) (q : dot_S8x512x8_S8x8x512_S8x512x512_2_1_1_2_0_0.contr.Idx) :
    (dot_S8x512x8_S8x8x512_S8x512x512_2_1_1_2_0_0.lhsIdx i q 0).val = (i 0).val := by
  unfold DotDims.lhsIdx
  rw [dif_pos (show (0 : Fin S8x512x8.rank) ∈ dot_S8x512x8_S8x8x512_S8x512x512_2_1_1_2_0_0.lhsBatch by decide)]
  rfl
theorem dot_lhs_1 (i : S8x512x512.Idx) (q : dot_S8x512x8_S8x8x512_S8x512x512_2_1_1_2_0_0.contr.Idx) :
    (dot_S8x512x8_S8x8x512_S8x512x512_2_1_1_2_0_0.lhsIdx i q 1).val = (i 1).val := by
  unfold DotDims.lhsIdx
  rw [dif_neg (show ¬(1 : Fin S8x512x8.rank) ∈ dot_S8x512x8_S8x8x512_S8x512x512_2_1_1_2_0_0.lhsBatch by decide),
    dif_pos (show (1 : Fin S8x512x8.rank) ∈ dot_S8x512x8_S8x8x512_S8x512x512_2_1_1_2_0_0.lhsNonContracting by decide)]
  rfl
theorem dot_lhs_2 (i : S8x512x512.Idx) (q : dot_S8x512x8_S8x8x512_S8x512x512_2_1_1_2_0_0.contr.Idx) :
    (dot_S8x512x8_S8x8x512_S8x512x512_2_1_1_2_0_0.lhsIdx i q 2).val = (q ⟨0, by decide⟩).val :=
  dot_S8x512x8_S8x8x512_S8x512x512_2_1_1_2_0_0.lhsIdx_val_of_single rfl i q
theorem dot_rhs_0 (i : S8x512x512.Idx) (q : dot_S8x512x8_S8x8x512_S8x512x512_2_1_1_2_0_0.contr.Idx) :
    (dot_S8x512x8_S8x8x512_S8x512x512_2_1_1_2_0_0.rhsIdx i q 0).val = (i 0).val := by
  unfold DotDims.rhsIdx
  rw [dif_pos (show (0 : Fin S8x8x512.rank) ∈ dot_S8x512x8_S8x8x512_S8x512x512_2_1_1_2_0_0.rhsBatch by decide)]
  rfl
theorem dot_rhs_1 (i : S8x512x512.Idx) (q : dot_S8x512x8_S8x8x512_S8x512x512_2_1_1_2_0_0.contr.Idx) :
    (dot_S8x512x8_S8x8x512_S8x512x512_2_1_1_2_0_0.rhsIdx i q 1).val = (q ⟨0, by decide⟩).val :=
  dot_S8x512x8_S8x8x512_S8x512x512_2_1_1_2_0_0.rhsIdx_val_of_single rfl i q
theorem dot_rhs_2 (i : S8x512x512.Idx) (q : dot_S8x512x8_S8x8x512_S8x512x512_2_1_1_2_0_0.contr.Idx) :
    (dot_S8x512x8_S8x8x512_S8x512x512_2_1_1_2_0_0.rhsIdx i q 2).val = (i 2).val := by
  unfold DotDims.rhsIdx
  rw [dif_neg (show ¬(2 : Fin S8x8x512.rank) ∈ dot_S8x512x8_S8x8x512_S8x512x512_2_1_1_2_0_0.rhsBatch by decide),
    dif_pos (show (2 : Fin S8x8x512.rank) ∈ dot_S8x512x8_S8x8x512_S8x512x512_2_1_1_2_0_0.rhsNonContracting by decide)]
  rfl

/-- The batched product of L[b,d,r] and R[b,r,o] at (b, d, o) is the sum over the rank axis. -/
theorem dot_apply (L : FVec Ideal S8x512x8 .f32) (R : FVec Ideal S8x8x512 .f32) (b : Fin 8) (d o : Fin 512) :
    Host.dotGeneral (F := Ideal) dot_S8x512x8_S8x8x512_S8x512x512_2_1_1_2_0_0 none L R (ix3 b d o)
      = ∑ r : Fin 8, L (ix3 b d r) * R (ix3 b r o) := by
  simp only [Host.dotGeneral]
  rw [Ideal.dotGeneral_apply, ← Equiv.sum_comp (ValueIdx.contrEquiv1 dot_S8x512x8_S8x8x512_S8x512x512_2_1_1_2_0_0 8 rfl rfl).symm]
  refine Finset.sum_congr rfl fun k _ => ?_
  have hk := ValueIdx.contrEquiv1_symm_val dot_S8x512x8_S8x8x512_S8x512x512_2_1_1_2_0_0 8 rfl rfl k
  have el : dot_S8x512x8_S8x8x512_S8x512x512_2_1_1_2_0_0.lhsIdx (ix3 b d o)
      ((ValueIdx.contrEquiv1 dot_S8x512x8_S8x8x512_S8x512x512_2_1_1_2_0_0 8 rfl rfl).symm k) = ix3 b d k :=
    funext fun a => Fin.ext (by
      match a with
      | ⟨0, _⟩ => exact dot_lhs_0 _ _
      | ⟨1, _⟩ => exact dot_lhs_1 _ _
      | ⟨2, _⟩ => exact (dot_lhs_2 _ _).trans hk)
  have er : dot_S8x512x8_S8x8x512_S8x512x512_2_1_1_2_0_0.rhsIdx (ix3 b d o)
      ((ValueIdx.contrEquiv1 dot_S8x512x8_S8x8x512_S8x512x512_2_1_1_2_0_0 8 rfl rfl).symm k) = ix3 b k o :=
    funext fun a => Fin.ext (by
      match a with
      | ⟨0, _⟩ => exact dot_rhs_0 _ _
      | ⟨1, _⟩ => exact (dot_rhs_1 _ _).trans hk
      | ⟨2, _⟩ => exact dot_rhs_2 _ _)
  rw [el, er]

/-! ## The other operands at an index -/

/-- The base weight transposed and broadcast over the samples, at (b, d, o), is W[o,d]. -/
theorem base_apply (W : FVec Ideal S512x512 .f32) (b : Fin 8) (d o : Fin 512) :
    broadcastInDim S8x512x512 ![0, 1, 2] bcast_S1x512x512_S8x512x512_0_1_2
        (broadcastInDim S1x512x512 ![1, 2] bcast_S512x512_S1x512x512_1_2
          (transpose S512x512 [1, 0] W transposes_S512x512_S512x512_1_0)) (ix3 b d o)
      = W (ix2 o d) := by
  refine (broadcastInDim_apply _ bcast_S1x512x512_S8x512x512_0_1_2 _ (ix3 b d o) (ix3 (0 : Fin 1) d o) (fun a => match a with
    | ⟨0, _⟩ => by show 0 = if (1 : Nat) = 1 then 0 else b.val; rw [if_pos rfl]
    | ⟨1, _⟩ => by show d.val = if (512 : Nat) = 1 then 0 else d.val; rw [if_neg (by decide)]
    | ⟨2, _⟩ => by show o.val = if (512 : Nat) = 1 then 0 else o.val; rw [if_neg (by decide)])).trans ?_
  refine (broadcastInDim_apply _ bcast_S512x512_S1x512x512_1_2 _ (ix3 (0 : Fin 1) d o) (ix2 d o) (fun a => match a with
    | ⟨0, _⟩ => by show d.val = if (512 : Nat) = 1 then 0 else d.val; rw [if_neg (by decide)]
    | ⟨1, _⟩ => by show o.val = if (512 : Nat) = 1 then 0 else o.val; rw [if_neg (by decide)])).trans ?_
  exact transpose_apply [1, 0] W transposes_S512x512_S512x512_1_0 (ix2 d o) (ix2 o d) (fun a => match a with
    | ⟨0, _⟩ => rfl
    | ⟨1, _⟩ => rfl)

/-- The broadcast constant is one everywhere. -/
theorem one_apply (j : S8x512x512.Idx) :
    broadcastInDim S8x512x512 ![] bcast_S_S8x512x512 (constant (F := Ideal) S_ .f32 0x3F800000#32) j = 1 := by
  refine (broadcastInDim_apply _ bcast_S_S8x512x512 _ j ix0 (fun a => a.elim0)).trans ?_
  exact LibFinite.f32_one

/-- The first factor transposed, at (b, d, r), is A[b,r,d]. -/
theorem At_apply (A : FVec Ideal S8x8x512 .f32) (b : Fin 8) (d : Fin 512) (r : Fin 8) :
    transpose S8x512x8 [0, 2, 1] A transposes_S8x8x512_S8x512x8_0_2_1 (ix3 b d r) = A (ix3 b r d) :=
  transpose_apply [0, 2, 1] A transposes_S8x8x512_S8x512x8_0_2_1 (ix3 b d r) (ix3 b r d) (fun a => match a with
    | ⟨0, _⟩ => rfl
    | ⟨1, _⟩ => rfl
    | ⟨2, _⟩ => rfl)

/-- The second factor transposed, at (b, r, o), is Bm[b,o,r]. -/
theorem Bt_apply (Bm : FVec Ideal S8x512x8 .f32) (b : Fin 8) (r : Fin 8) (o : Fin 512) :
    transpose S8x8x512 [0, 2, 1] Bm transposes_S8x512x8_S8x8x512_0_2_1 (ix3 b r o) = Bm (ix3 b o r) :=
  transpose_apply [0, 2, 1] Bm transposes_S8x512x8_S8x8x512_0_2_1 (ix3 b r o) (ix3 b o r) (fun a => match a with
    | ⟨0, _⟩ => rfl
    | ⟨1, _⟩ => rfl
    | ⟨2, _⟩ => rfl)

/-! ## The folded weights -/

/-- Entry (b, d, o) of what the host computes. -/
theorem tail_apply (W : FVec Ideal S512x512 .f32) (A : FVec Ideal S8x8x512 .f32) (Bm : FVec Ideal S8x512x8 .f32)
    (b : Fin 8) (d o : Fin 512) :
    tail W A Bm (ix3 b d o) = W (ix2 o d) + ∑ r : Fin 8, A (ix3 b r d) * Bm (ix3 b o r) := by
  unfold tail
  rw [truncf_apply, addf_apply, mulf_apply, base_apply, one_apply, dot_apply, one_mul]
  refine congrArg _ (Finset.sum_congr rfl fun r _ => ?_)
  rw [At_apply, Bt_apply]

/-- What the host computes is the specification's folded weights, for any base weight and factors. -/
theorem tail_eq_weff (W : FVec Ideal S512x512 .f32) (A : FVec Ideal S8x8x512 .f32) (Bm : FVec Ideal S8x512x8 .f32) :
    tail W A Bm = Cert.Lora.weff W A Bm := by
  funext j
  obtain ⟨b, d, o, rfl⟩ : ∃ (b : Fin 8) (d o : Fin 512), j = ix3 b d o := ⟨j 0, j 1, j 2, eq_ix3 j⟩
  rw [tail_apply]
  rfl

end Cert.Lora.Host

end
-- ==== Proof.KernelHost.lean ====
/-
  What the region finds in the two arrays the host wrote before it.

  The folded-weight array holds, for the base weight W (argument 2) and the two low-rank factors A and Bm the
  hypernetwork produced from the style vector, entry (b, d, o) = W[o,d] + Σ_r A[b,r,d] · Bm[b,o,r]; the two
  factors are the very compositions of operations the reference program applies to the same arguments, and are
  named by them without being opened. The bias row holds the base bias (argument 3) as a one-row matrix.
-/
import proofs.«112562_j60000693125372_2_alg».proof.Proof.Gen.KernelIdeal.Frame
import proofs.«112562_j60000693125372_2_alg».proof.Proof.Gen.ReferenceIdeal.Read
import proofs.«112562_j60000693125372_2_alg».proof.Proof.KernelHostRead

noncomputable section

namespace Cert.Lora.Host

open Idealize.ShloMosaic Idealize.ShloMosaic.TcCoe Idealize.SL.Sem Idealize.ShloMosaic.StableHlo Idealize.ShloMosaic.ValueIdx
open Cert.KernelIdeal Cert.KernelIdeal.Gen
open scoped BigOperators

variable (m : (ℓ : Loc Cert.KernelIdeal.nD Cert.KernelIdeal.τ Cert.KernelIdeal.sig) → Buf (Elt Ideal) ℓ) (c : Dev Cert.KernelIdeal.nD)

/-! ## The folded weights -/

set_option maxHeartbeats 2000000 in
/-- The folded-weight array is the host's last ten operations applied to the base weight and to the two
    factors; the operations before them are the ones the reference applies to the same five arguments. -/
theorem V_tail :
    (Cert.KernelIdeal.Gen.V m c Cert.KernelIdeal.main_v25 : Cert.Lora.SWe.Idx → EReal)
      = tail (m ((c.tc : Thread Cert.KernelIdeal.nD Cert.KernelIdeal.τ).loc Cert.KernelIdeal.main_arg2))
          (Cert.ReferenceIdeal.Read.val_main_v16 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)))
          (Cert.ReferenceIdeal.Read.val_main_v18 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))) := by
  dsimp only [Gen.V]
  simp only [Gen.hostOps0, Gen.hostOps0_1, Gen.hostOps0_2, List.flatten_cons, List.flatten_nil, List.append_nil, List.cons_append,
    List.nil_append]
  after_results_simp
  rfl

/-- The region finds the specification's folded weights of the base weight and the two factors. -/
theorem V_weff :
    (Cert.KernelIdeal.Gen.V m c Cert.KernelIdeal.main_v25 : Cert.Lora.SWe.Idx → EReal)
      = Cert.Lora.weff (m ((c.tc : Thread Cert.KernelIdeal.nD Cert.KernelIdeal.τ).loc Cert.KernelIdeal.main_arg2))
          (Cert.ReferenceIdeal.Read.val_main_v16 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)))
          (Cert.ReferenceIdeal.Read.val_main_v18 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))) :=
  (V_tail m c).trans (tail_eq_weff _ _ _)

/-! ## The bias row -/

set_option maxHeartbeats 2000000 in
/-- The bias row is the base bias recast as a one-row matrix. -/
theorem V_bias_cast :
    (Cert.KernelIdeal.Gen.V m c Cert.KernelIdeal.main_v18 : Cert.Lora.SB2.Idx → EReal)
      = shapeCast S1x512 (m ((c.tc : Thread Cert.KernelIdeal.nD Cert.KernelIdeal.τ).loc Cert.KernelIdeal.main_arg3)) shapeCasts_S512_S1x512 := by
  dsimp only [Gen.V]
  simp only [Gen.hostOps0, Gen.hostOps0_1, Gen.hostOps0_2, List.flatten_cons, List.flatten_nil, List.append_nil, List.cons_append,
    List.nil_append]
  after_results_simp
  rfl

/-- Entry (0, o) of the bias row is entry o of the base bias. -/
theorem V_bias (o : Fin 512) :
    (Cert.KernelIdeal.Gen.V m c Cert.KernelIdeal.main_v18 : Cert.Lora.SB2.Idx → EReal) (ix2 (0 : Fin 1) o)
      = (m ((c.tc : Thread Cert.KernelIdeal.nD Cert.KernelIdeal.τ).loc Cert.KernelIdeal.main_arg3)) (ix1 o) := by
  rw [V_bias_cast]
  exact shapeCast_apply _ shapeCasts_S512_S1x512 (ix2 (0 : Fin 1) o) (ix1 o)
    (by rw [Shape.rowMajor_val_one, Shape.rowMajor_val_two]; show o.val = 0 * 512 + o.val; omega)

end Cert.Lora.Host

end
-- ==== Proof.RefValue.lean ====
/-
  The reference program's result, entry by entry.

  Reading its operations from the last one back: the result at (sample b, token t, output o) is
  the base product  Σ_d X[b,t,d] · W[o,d]  plus the bias  bb[o],  plus the constant factor 1 times
  the low-rank path  Σ_r (Σ_d X[b,t,d] · A[b,r,d]) · Bm[b,o,r],  where A and Bm are the two
  factors the hypernetwork stages produce. The factors are carried as they are and never opened;
  the factor 1 is the binary word of 1.0 and drops out by 1 · y = y.
-/
import proofs.«112562_j60000693125372_2_alg».proof.Proof.Gen.ReferenceIdeal.Read
import proofs.«112562_j60000693125372_2_alg».proof.Proof.Spec
import proofs.«112562_j60000693125372_2_alg».proof.Proof.LibFiniteOps

noncomputable section

namespace Cert.Lora.Ref

open Cert.ReferenceIdeal Cert.ReferenceIdeal.Read Idealize.ShloMosaic Idealize.ShloMosaic.ValueIdx
open scoped BigOperators

/-! ### Where each operation reads its operands, in coordinates -/

/-- The base product reads the activations at (b, t, d). -/
theorem lidx_base (b : Fin 8) (t : Fin 4096) (o : Fin 512) (d : Fin 512) :
    lidx_main_v0 (ix3 b t o) d = ix3 b t d :=
  funext fun a => Fin.ext (by match a with | ⟨0, _⟩ => rfl | ⟨1, _⟩ => rfl | ⟨2, _⟩ => rfl)

/-- The base product reads the base weight at (o, d). -/
theorem ridx_base (b : Fin 8) (t : Fin 4096) (o : Fin 512) (d : Fin 512) :
    ridx_main_v0 (ix3 b t o) d = ix2 o d :=
  funext fun a => Fin.ext (by match a with | ⟨0, _⟩ => rfl | ⟨1, _⟩ => rfl)

/-- The two broadcasts of the bias read it at o. -/
theorem idx_bias (b : Fin 8) (t : Fin 4096) (o : Fin 512) :
    idx_main_v1 (idx_main_v2 (ix3 b t o)) = ix1 o :=
  funext fun a => Fin.ext (by match a with | ⟨0, _⟩ => rfl)

/-- The second low-rank product reads the first one at (b, t, r). -/
theorem lidx_up (b : Fin 8) (t : Fin 4096) (o : Fin 512) (r : Fin 8) :
    lidx_main_v20 (ix3 b t o) r = ix3 b t r :=
  funext fun a => Fin.ext (by match a with | ⟨0, _⟩ => rfl | ⟨1, _⟩ => rfl | ⟨2, _⟩ => rfl)

/-- The second low-rank product reads the second factor at (b, o, r). -/
theorem ridx_up (b : Fin 8) (t : Fin 4096) (o : Fin 512) (r : Fin 8) :
    ridx_main_v20 (ix3 b t o) r = ix3 b o r :=
  funext fun a => Fin.ext (by match a with | ⟨0, _⟩ => rfl | ⟨1, _⟩ => rfl | ⟨2, _⟩ => rfl)

/-- The first low-rank product reads the activations at (b, t, d). -/
theorem lidx_down (b : Fin 8) (t : Fin 4096) (r : Fin 8) (d : Fin 512) :
    lidx_main_v19 (ix3 b t r) d = ix3 b t d :=
  funext fun a => Fin.ext (by match a with | ⟨0, _⟩ => rfl | ⟨1, _⟩ => rfl | ⟨2, _⟩ => rfl)

/-- The first low-rank product reads the first factor at (b, r, d). -/
theorem ridx_down (b : Fin 8) (t : Fin 4096) (r : Fin 8) (d : Fin 512) :
    ridx_main_v19 (ix3 b t r) d = ix3 b r d :=
  funext fun a => Fin.ext (by match a with | ⟨0, _⟩ => rfl | ⟨1, _⟩ => rfl | ⟨2, _⟩ => rfl)

/-! ### The result -/

/-- The reference program's result is the base linear map plus the low-rank path taken factor by
    factor, with the two factors the hypernetwork stages produce. -/
theorem ref_eq
    (x0 : (⟨S8x4096x512, .f32⟩ : BufTy).Contents (Elt Ideal)) (x1 : (⟨S8x256, .f32⟩ : BufTy).Contents (Elt Ideal))
    (x2 : (⟨S512x512, .f32⟩ : BufTy).Contents (Elt Ideal)) (x3 : (⟨S512, .f32⟩ : BufTy).Contents (Elt Ideal))
    (x4 : (⟨S256x256, .f32⟩ : BufTy).Contents (Elt Ideal)) (x5 : (⟨S256, .f32⟩ : BufTy).Contents (Elt Ideal))
    (x6 : (⟨S8192x256, .f32⟩ : BufTy).Contents (Elt Ideal)) (x7 : (⟨S8192, .f32⟩ : BufTy).Contents (Elt Ideal)) :
    val_main_v23 (F := Ideal) x0 x1 x2 x3 x4 x5 x6 x7
      = Cert.Lora.refOut x0 x2 x3 (val_main_v16 (F := Ideal) x1 x4 x5 x6 x7) (val_main_v18 (F := Ideal) x1 x4 x5 x6 x7) := by
  funext i
  obtain ⟨b, t, o, rfl⟩ : ∃ (b : Fin 8) (t : Fin 4096) (o : Fin 512), i = ix3 b t o := ⟨i 0, i 1, i 2, eq_ix3 i⟩
  rw [val_main_v23_apply, val_main_v3_apply, val_main_v0_apply, val_main_v2_apply, val_main_v1_apply,
    val_main_v22_apply, val_main_v21_apply, val_main_cst_apply, val_main_v20_apply]
  simp only [val_main_v19_apply]
  generalize val_main_v16 (F := Ideal) x1 x4 x5 x6 x7 = A
  generalize val_main_v18 (F := Ideal) x1 x4 x5 x6 x7 = Bm
  simp only [lidx_base, ridx_base, idx_bias, lidx_up, ridx_up, lidx_down, ridx_down,
    Ideal.addf_def, Ideal.mulf_def, Ideal.ofBits_def, LibFinite.f32_one, one_mul]
  rfl

end Cert.Lora.Ref

end
-- ==== Proof.RefFinite.lean ====
/-
  The two low-rank factors are finite.

  The hypernetwork stages are: a transpose, a matrix product, a bias add, the gate
  z · (1 / (1 + exp (−z))), a second transpose, matrix product and bias add, and then two slices
  and two reshapes. Each keeps a finite array finite. The one step that needs an argument is the
  quotient: the exponential of a real number is a positive real, so 1 + exp (−z) is a real
  greater than 0, in particular not 0, and 1 divided by it is a real.
-/
import proofs.«112562_j60000693125372_2_alg».proof.Proof.Gen.ReferenceIdeal.Read
import proofs.«112562_j60000693125372_2_alg».proof.Proof.LibFiniteOps

noncomputable section

namespace Cert.Lora.Ref

open Cert.ReferenceIdeal Cert.ReferenceIdeal.Read Idealize.ShloMosaic LibFinite

/-! ### Two general facts: negation and the exponential of finite arrays -/

/-- The negation of a finite array is finite. -/
theorem allReal_hostNegf {s : Shape} {φ : FTy} {x : FVec Ideal s φ} (hx : AllReal x) : AllReal (Host.negf x) :=
  fun i => (hx i).neg

/-- The exponential of a real number is a real number. -/
theorem isReal_exp {x : EReal} (hx : IsReal x) : IsReal (Ideal.exp x) := by
  obtain ⟨r, rfl⟩ := hx
  exact ⟨Real.exp r, rfl⟩

/-- The exponential of a real number is positive. -/
theorem exp_pos_of_isReal {x : EReal} (hx : IsReal x) : 0 < Ideal.exp x := by
  obtain ⟨r, rfl⟩ := hx
  show (0 : EReal) < ((Real.exp r : ℝ) : EReal)
  exact EReal.coe_pos.mpr (Real.exp_pos r)

/-- The exponential of a finite array is finite. -/
theorem allReal_hostExp {s : Shape} {φ : FTy} {x : FVec Ideal s φ} (hx : AllReal x) : AllReal (Host.exp x) :=
  fun i => isReal_exp (hx i)

/-- The exponential of a finite array is positive at every entry. -/
theorem hostExp_pos {s : Shape} {φ : FTy} {x : FVec Ideal s φ} (hx : AllReal x) (i : s.Idx) : 0 < Host.exp x i :=
  exp_pos_of_isReal (hx i)

/-- One plus a positive extended real is not zero. -/
theorem one_add_ne_zero {e : EReal} (he : 0 < e) : (1 : EReal) + e ≠ 0 :=
  (lt_of_lt_of_le zero_lt_one (le_add_of_nonneg_right he.le)).ne'

/-! ### The stages -/

/-- Both low-rank factors are finite when the style vector and the hypernetwork's weights are. -/
theorem factors_real
    (x1 : (⟨S8x256, .f32⟩ : BufTy).Contents (Elt Ideal)) (x4 : (⟨S256x256, .f32⟩ : BufTy).Contents (Elt Ideal))
    (x5 : (⟨S256, .f32⟩ : BufTy).Contents (Elt Ideal)) (x6 : (⟨S8192x256, .f32⟩ : BufTy).Contents (Elt Ideal))
    (x7 : (⟨S8192, .f32⟩ : BufTy).Contents (Elt Ideal))
    (h1 : AllReal x1) (h4 : AllReal x4) (h5 : AllReal x5) (h6 : AllReal x6) (h7 : AllReal x7) :
    AllReal (val_main_v16 (F := Ideal) x1 x4 x5 x6 x7) ∧ AllReal (val_main_v18 (F := Ideal) x1 x4 x5 x6 x7) := by
  -- the first layer: transpose, product, bias
  have hv4 : AllReal (val_main_v4 (F := Ideal) x4) := by
    unfold val_main_v4; exact allReal_transpose h4 _ _ _
  have hv5 : AllReal (val_main_v5 (F := Ideal) x1 x4) := by
    unfold val_main_v5; exact allReal_dotGeneral _ _ h1 hv4
  have hv6 : AllReal (val_main_v6 (F := Ideal) x5) := by
    unfold val_main_v6; exact allReal_broadcastInDim h5 _ _ _
  have hv7 : AllReal (val_main_v7 (F := Ideal) x5) := by
    unfold val_main_v7; exact allReal_broadcastInDim hv6 _ _ _
  have hv8 : AllReal (val_main_v8 (F := Ideal) x1 x4 x5) := by
    unfold val_main_v8; exact allReal_addf hv5 hv7
  -- the gate: exp (−z) is a positive real, so 1 + exp (−z) is a real that is not 0
  have hn : AllReal (val_main_call0_v0 (F := Ideal) x1 x4 x5) := by
    unfold val_main_call0_v0; exact allReal_hostNegf hv8
  have he : AllReal (val_main_call0_v1 (F := Ideal) x1 x4 x5) := by
    unfold val_main_call0_v1; exact allReal_hostExp hn
  have hepos : ∀ i, 0 < val_main_call0_v1 (F := Ideal) x1 x4 x5 i := by
    unfold val_main_call0_v1; exact hostExp_pos hn
  have hone : AllReal (val_main_call0_v2 (F := Ideal)) := by
    unfold val_main_call0_v2 val_main_call0_cst
    exact allReal_broadcastInDim (allReal_constant_one_f32 _) _ _ _
  have hone' : AllReal (val_main_call0_v4 (F := Ideal)) := by
    unfold val_main_call0_v4 val_main_call0_cst_0
    exact allReal_broadcastInDim (allReal_constant_one_f32 _) _ _ _
  have hden : AllReal (val_main_call0_v3 (F := Ideal) x1 x4 x5) := by
    unfold val_main_call0_v3; exact allReal_addf hone he
  have hden0 : ∀ i, val_main_call0_v3 (F := Ideal) x1 x4 x5 i ≠ 0 := by
    intro i
    rw [val_main_call0_v3_apply, val_main_call0_v2_apply, val_main_call0_cst_apply, Ideal.addf_def, Ideal.ofBits_def,
      f32_one]
    exact one_add_ne_zero (hepos i)
  have hsig : AllReal (val_main_call0_v5 (F := Ideal) x1 x4 x5) := by
    unfold val_main_call0_v5; exact allReal_hostDivf hone' hden hden0
  have hv9 : AllReal (val_main_v9 (F := Ideal) x1 x4 x5) := by
    unfold val_main_v9; exact allReal_mulf hv8 hsig
  -- the second layer: transpose, product, bias
  have hv10 : AllReal (val_main_v10 (F := Ideal) x6) := by
    unfold val_main_v10; exact allReal_transpose h6 _ _ _
  have hv11 : AllReal (val_main_v11 (F := Ideal) x1 x4 x5 x6) := by
    unfold val_main_v11; exact allReal_dotGeneral _ _ hv9 hv10
  have hv12 : AllReal (val_main_v12 (F := Ideal) x7) := by
    unfold val_main_v12; exact allReal_broadcastInDim h7 _ _ _
  have hv13 : AllReal (val_main_v13 (F := Ideal) x7) := by
    unfold val_main_v13; exact allReal_broadcastInDim hv12 _ _ _
  have hv14 : AllReal (val_main_v14 (F := Ideal) x1 x4 x5 x6 x7) := by
    unfold val_main_v14; exact allReal_addf hv11 hv13
  -- the two halves, each reshaped
  have hv15 : AllReal (val_main_v15 (F := Ideal) x1 x4 x5 x6 x7) := by
    unfold val_main_v15; exact allReal_extractStridedSlice hv14 _ _ _
  have hv17 : AllReal (val_main_v17 (F := Ideal) x1 x4 x5 x6 x7) := by
    unfold val_main_v17; exact allReal_extractStridedSlice hv14 _ _ _
  refine ⟨?_, ?_⟩
  · unfold val_main_v16; exact allReal_shapeCast hv15 _ _
  · unfold val_main_v18; exact allReal_shapeCast hv17 _ _

end Cert.Lora.Ref

end
-- ==== Proof.Claims.lean ====
/-
  The five claims of the certificate.

  The kernel program folds, on the host, the two low-rank factors A[b,r,d], Bm[b,o,r] of each sample into the base
  weight, We[b,d,o] = W[o,d] + Σ_r A[b,r,d]·Bm[b,o,r], and its one region computes out[b,t,o] = Σ_d X[b,t,d]·We[b,d,o]
  + bb[o] block by block. The reference computes ((Σ_d X[b,t,d]·W[o,d]) + bb[o]) + Σ_r (Σ_d X[b,t,d]·A[b,r,d])·Bm[b,o,r].
  Both take A and Bm from the same hypernetwork applied to the same arguments, which is never opened here: the
  factors are carried as two arrays. For real entries the two formulas agree by distributivity and an exchange of
  finite sums; the entries are real because every input is finite and every operation of the hypernetwork
  (products, sums, the exponential, a quotient by 1 + exp(−z) > 0) keeps real values real.
-/
import proofs.«112562_j60000693125372_2_alg».proof.Defs
import proofs.«112562_j60000693125372_2_alg».proof.Proof.Gen.Kernel.Frame
import proofs.«112562_j60000693125372_2_alg».proof.Proof.Gen.KernelIdeal.Value
import proofs.«112562_j60000693125372_2_alg».proof.Proof.Gen.ReferenceIdeal.Read
import proofs.«112562_j60000693125372_2_alg».proof.Proof.Gen.Pre_finite_inputs
import proofs.«112562_j60000693125372_2_alg».proof.Proof.SpecLaw
import proofs.«112562_j60000693125372_2_alg».proof.Proof.PreFinite
import proofs.«112562_j60000693125372_2_alg».proof.Proof.KernelRegion
import proofs.«112562_j60000693125372_2_alg».proof.Proof.KernelHost
import proofs.«112562_j60000693125372_2_alg».proof.Proof.RefValue
import proofs.«112562_j60000693125372_2_alg».proof.Proof.RefFinite

noncomputable section

namespace Cert.Proof.Claims

open Idealize.ShloMosaic Idealize.ShloMosaic.TcCoe Idealize.SL.Sem Idealize.ShloMosaic.ValueIdx LibFinite

/-- An argument array of the kernel program's launch memory. -/
abbrev karg (m : (ℓ : Loc Cert.KernelIdeal.nD Cert.KernelIdeal.τ Cert.KernelIdeal.sig) → Buf (Elt Ideal) ℓ)
    (c : Dev Cert.KernelIdeal.nD) (b : Ref Cert.KernelIdeal.sig .tc) :=
  m ((c.tc : Thread Cert.KernelIdeal.nD Cert.KernelIdeal.τ).loc b)

/-- The first low-rank factor the hypernetwork produces from the kernel program's arguments. -/
abbrev facA (m : (ℓ : Loc Cert.KernelIdeal.nD Cert.KernelIdeal.τ Cert.KernelIdeal.sig) → Buf (Elt Ideal) ℓ)
    (c : Dev Cert.KernelIdeal.nD) : Cert.Lora.SA.Idx → EReal :=
  Cert.ReferenceIdeal.Read.val_main_v16 (F := Ideal) (karg m c Cert.KernelIdeal.main_arg1) (karg m c Cert.KernelIdeal.main_arg4)
    (karg m c Cert.KernelIdeal.main_arg5) (karg m c Cert.KernelIdeal.main_arg6) (karg m c Cert.KernelIdeal.main_arg7)

/-- The second low-rank factor. -/
abbrev facB (m : (ℓ : Loc Cert.KernelIdeal.nD Cert.KernelIdeal.τ Cert.KernelIdeal.sig) → Buf (Elt Ideal) ℓ)
    (c : Dev Cert.KernelIdeal.nD) : Cert.Lora.SBm.Idx → EReal :=
  Cert.ReferenceIdeal.Read.val_main_v18 (F := Ideal) (karg m c Cert.KernelIdeal.main_arg1) (karg m c Cert.KernelIdeal.main_arg4)
    (karg m c Cert.KernelIdeal.main_arg5) (karg m c Cert.KernelIdeal.main_arg6) (karg m c Cert.KernelIdeal.main_arg7)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end at the reference's formula of the arguments: the kernel program because the region leaves one
    dense product with the folded weights plus the bias row, which for real entries is that formula; the reference by
    reading its operations one at a time. The entries are real because the inputs are finite and the hypernetwork
    keeps finite values finite. -/
theorem algebraic : Cert.algebraic_KernelIdeal_ReferenceIdeal := by
  intro m ρ m' ρ' hpre hagree
  refine ⟨fun c => Cert.Lora.refOut (karg m c Cert.KernelIdeal.main_arg0) (karg m c Cert.KernelIdeal.main_arg2)
    (karg m c Cert.KernelIdeal.main_arg3) (facA m c) (facB m c), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2, h3, h4, h5, h6, h7⟩ := Cert.Lora.Pre.args_real _ _ _ _ _ _ _ _ (hpre c)
    obtain ⟨hA, hB⟩ := Cert.Lora.Ref.factors_real _ _ _ _ _ h1 h4 h5 h6 h7
    rw [Cert.Lora.Region.final m c, Cert.Lora.Host.V_weff m c, Cert.KernelIdeal.Gen.V_main_arg0]
    exact Cert.Lora.kernelOut_weff_eq_refOut _ _ _ _ _ _ (Cert.Lora.Host.V_bias m c) h0 h2 h3 hA hB
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, Cert.Lora.Ref.ref_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

end Cert.Proof.Claims

end
-- ==== Proof.lean ====
/-
  The certificate's theorem: the three frames, the (empty) idealization ledger, and the equality of the idealized
  kernel program and the idealized reference over the extended reals, behind the witnesses of the programs' stated
  side conditions. The mathematics is in Proof/Claims.lean and the modules it imports: the specification and the
  algebraic law (Spec, SpecLaw), the precondition read back (PreFinite), the kernel's region and host prefix
  (KernelBody, KernelRegion, KernelHost) and the reference read one operation at a time (RefValue, RefFinite).
-/
import proofs.«112562_j60000693125372_2_alg».proof.Defs
import proofs.«112562_j60000693125372_2_alg».proof.Proof.Gen.Kernel
import proofs.«112562_j60000693125372_2_alg».proof.Proof.Gen.KernelIdeal
import proofs.«112562_j60000693125372_2_alg».proof.Proof.Gen.ReferenceIdeal
import proofs.«112562_j60000693125372_2_alg».proof.Proof.Gen.Pre_finite_inputs
import proofs.«112562_j60000693125372_2_alg».proof.Proof.Gen.KernelIdeal.Value
import proofs.«112562_j60000693125372_2_alg».proof.Proof.Gen.ReferenceIdeal.Run
import proofs.«112562_j60000693125372_2_alg».proof.Proof.Gen.ReferenceIdeal.Read
import proofs.«112562_j60000693125372_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
